-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x4 : Shape := ⟨2, ![1000000, 4]⟩
abbrev S1000000x64 : Shape := ⟨2, ![1000000, 64]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel

variable [Facts]

def fn {F : FTy → Type} [FloatOps F] (main_arg0 : IVec S1000000x4 32) (main_arg1 : FVec F S1000000x64 .f32) : IVec S_ 1 :=
  let main_v0 : FVec F S1000000x64 .f32 := Host.absf main_arg1
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  main_v3
-- ==== Kernel.lean ====
abbrev S1000000x4 : Shape := ⟨2, ![1000000, 4]⟩
abbrev S1000000x64 : Shape := ⟨2, ![1000000, 64]⟩
abbrev S1000000x1 : Shape := ⟨2, ![1000000, 1]⟩
abbrev S4000x4 : Shape := ⟨2, ![4000, 4]⟩
abbrev S4000x64 : Shape := ⟨2, ![4000, 64]⟩
abbrev S4000x1 : Shape := ⟨2, ![4000, 1]⟩
abbrev S1000000 : Shape := ⟨1, ![1000000]⟩
abbrev S_ : Shape := ⟨0, ![]⟩

abbrev nBuf : Space → Nat
  | .hbm => 9
  | .vmem => 8
  | .smem => 0
  | _ => 0

abbrev bufTy : (tb : Table) → Fin (tcTables nBuf tb) → BufTy
  | .hbm, ⟨0, _⟩ => ⟨S1000000x4, .i32⟩
  | .hbm, ⟨1, _⟩ => ⟨S1000000x64, .f32⟩
  | .hbm, ⟨2, _⟩ => ⟨S1000000x64, .f32⟩
  | .hbm, ⟨3, _⟩ => ⟨S1000000x1, .i32⟩
  | .hbm, ⟨4, _⟩ => ⟨S1000000, .i32⟩
  | .hbm, ⟨5, _⟩ => ⟨S_, .i32⟩
  | .hbm, ⟨6, _⟩ => ⟨S1000000, .i32⟩
  | .hbm, ⟨7, _⟩ => ⟨S1000000, .i1⟩
  | .hbm, ⟨8, _⟩ => ⟨S1000000, .i1⟩
  | .local _ .vmem, ⟨0, _⟩ => ⟨S4000x4, .i32⟩
  | .local _ .vmem, ⟨1, _⟩ => ⟨S4000x4, .i32⟩
  | .local _ .vmem, ⟨2, _⟩ => ⟨S4000x64, .f32⟩
  | .local _ .vmem, ⟨3, _⟩ => ⟨S4000x64, .f32⟩
  | .local _ .vmem, ⟨4, _⟩ => ⟨S4000x64, .f32⟩
  | .local _ .vmem, ⟨5, _⟩ => ⟨S4000x64, .f32⟩
  | .local _ .vmem, ⟨6, _⟩ => ⟨S4000x1, .i32⟩
  | .local _ .vmem, ⟨7, _⟩ => ⟨S4000x1, .i32⟩
  | _, _ => ⟨S1000000x4, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x4 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S4000x4_S4000x4_0_0 : ∀ a, (![0, 0] : Fin 2 → Nat) a + S4000x4.size a ≤ S4000x4.size a
  h_S4000x4 : 0 < S4000x4.numel
  slices_S4000x4_o0_0_S4000x1 : S4000x4.Slices ![0, 0] S4000x1
  slices_S4000x4_o0_1_S4000x1 : S4000x4.Slices ![0, 1] S4000x1
  slices_S4000x4_o0_2_S4000x1 : S4000x4.Slices ![0, 2] S4000x1
  inb_S4000x64_S4000x64_0_0 : ∀ a, (![0, 0] : Fin 2 → Nat) a + S4000x64.size a ≤ S4000x64.size a
  h_S4000x64 : 0 < S4000x64.numel
  natLt_1_32 : 1 < 32
  broadcasts_S4000x1_S4000x64 : S4000x1.Broadcasts S4000x64
  inb_S4000x1_S4000x1_0_0 : ∀ a, (![0, 0] : Fin 2 → Nat) a + S4000x1.size a ≤ S4000x1.size a
  h_S4000x1 : 0 < S4000x1.numel
  shapeCasts_S1000000x1_S1000000 : S1000000x1.ShapeCasts S1000000
  bcast_S_S1000000 : S_.BroadcastsInDim S1000000 (![] : Fin 0 → Fin S1000000.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x4.size a ≤ S1000000x4.size a
  hwx0_0 : ∀ i : grid0.Coords, EltTy.bits .i32 = 32 ∨ (Rect.block (s := S1000000x4) S4000x4.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S1000000x64.size a
  hwx0_1 : ∀ i : grid0.Coords, EltTy.bits .f32 = 32 ∨ (Rect.block (s := S1000000x64) S4000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S1000000x64.size a
  hwx0_2 : ∀ i : grid0.Coords, EltTy.bits .f32 = 32 ∨ (Rect.block (s := S1000000x64) S4000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x1.size a ≤ S1000000x1.size a
  hwx0_3 : ∀ i : grid0.Coords, EltTy.bits .i32 = 32 ∨ (Rect.block (s := S1000000x1) S4000x1.size (cc0_transform_3 i) (hinb0_3 i)).WholeWords (EltTy.packing .i32)

variable [Facts₀]

abbrev win0_0 : Pipeline.Window sig grid0 :=
  Pipeline.Window.ofSpec (Memref.whole main_arg0) S4000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S4000x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S4000x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1000000x4 : Shape := ⟨2, ![1000000, 4]⟩
abbrev S1000000x64 : Shape := ⟨2, ![1000000, 64]⟩
abbrev S3 : Shape := ⟨1, ![3]⟩
abbrev S1000000x3 : Shape := ⟨2, ![1000000, 3]⟩
abbrev S1x3 : Shape := ⟨2, ![1, 3]⟩
abbrev S_ : Shape := ⟨0, ![]⟩
abbrev S1000000 : Shape := ⟨1, ![1000000]⟩
abbrev S1000000x1 : Shape := ⟨2, ![1000000, 1]⟩

abbrev nBuf : Space → Nat
  | .hbm => 18
  | .vmem => 0
  | .smem => 0
  | _ => 0

abbrev bufTy : (tb : Table) → Fin (tcTables nBuf tb) → BufTy
  | .hbm, ⟨0, _⟩ => ⟨S1000000x4, .i32⟩
  | .hbm, ⟨1, _⟩ => ⟨S1000000x64, .f32⟩
  | .hbm, ⟨2, _⟩ => ⟨S3, .i32⟩
  | .hbm, ⟨3, _⟩ => ⟨S3, .i32⟩
  | .hbm, ⟨4, _⟩ => ⟨S1000000x3, .i32⟩
  | .hbm, ⟨5, _⟩ => ⟨S1x3, .i32⟩
  | .hbm, ⟨6, _⟩ => ⟨S1000000x3, .i32⟩
  | .hbm, ⟨7, _⟩ => ⟨S1000000x3, .i1⟩
  | .hbm, ⟨8, _⟩ => ⟨S1x3, .i32⟩
  | .hbm, ⟨9, _⟩ => ⟨S1000000x3, .i32⟩
  | .hbm, ⟨10, _⟩ => ⟨S1000000x3, .i1⟩
  | .hbm, ⟨11, _⟩ => ⟨S1000000x3, .i1⟩
  | .hbm, ⟨12, _⟩ => ⟨S_, .i1⟩
  | .hbm, ⟨13, _⟩ => ⟨S1000000, .i1⟩
  | .hbm, ⟨14, _⟩ => ⟨S1000000x1, .i1⟩
  | .hbm, ⟨15, _⟩ => ⟨S1000000x1, .f32⟩
  | .hbm, ⟨16, _⟩ => ⟨S1000000x64, .f32⟩
  | .hbm, ⟨17, _⟩ => ⟨S1000000x64, .f32⟩
  | _, _ => ⟨S1000000x4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  slices_S1000000x4_S1000000x3_0_0 : S1000000x4.Slices ![0, 0] S1000000x3
  bcast_S3_S1x3_1 : S3.BroadcastsInDim S1x3 (![1] : Fin 1 → Fin S1x3.rank)
  bcast_S1x3_S1000000x3_0_1 : S1x3.BroadcastsInDim S1000000x3 (![0, 1] : Fin 2 → Fin S1000000x3.rank)
  reducesTo_S1000000x3_S1000000_d1 : S1000000x3.ReducesTo [1] S1000000
  h_S_ : 0 < S_.numel
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)

variable [Facts₀]

class Facts : Prop extends Facts₀ where

variable [Facts]
-- ==== Proof.Spec.lean ====
/-
  The specification of the crop, as functions of the two argument arrays.

  The coordinate array has one row per point, four signed 32-bit columns; columns 0, 1, 2 are the spatial coordinates
  and column 3 is not read. A point is KEPT when each spatial coordinate `x` satisfies `10 ≤ x` and `x < 90` as
  signed integers. The two results are
    · the features with the rows of the points that are not kept set to zero: entry (n, j) is the feature (n, j) times
      the keep bit of row n read as the real number 0 or 1, and
    · the keep bit of every row.
  Nothing here needs the features to be finite: the product with 0 or 1 is taken on the extended reals as it stands,
  and both programs take the same product.

  The bit facts the two programs' spellings differ by are proved here once: a bit zero-extended to 32 bits reads as
  the same number signed or unsigned, is different from zero exactly when the bit is set, and a conjunction of six
  bits is the same however it is bracketed and whether or not it starts from the constant `true`.
-/
import Idealize.ShloMosaic.PureOps.Ideal
import Idealize.ShloMosaic.PureOps.Reduce
import Idealize.ShloMosaic.Lib.ValueIdx

noncomputable section

namespace Cert.Crop

open Idealize.ShloMosaic Idealize.ShloMosaic.ValueIdx

/-- The coordinate array's shape, the feature array's, the mask's and the mask's as a column. -/
abbrev Coords : Shape := ⟨2, ![1000000, 4]⟩
abbrev Feats : Shape := ⟨2, ![1000000, 64]⟩
abbrev Rows : Shape := ⟨1, ![1000000]⟩
abbrev Column : Shape := ⟨2, ![1000000, 1]⟩

/-- One coordinate lies in the half-open interval [10, 90), compared signed. -/
def inBox (x : BitVec 32) : BitVec 1 := IntOp.andi (IntOp.cmpi .sge x 10#32) (IntOp.cmpi .slt x 90#32)

/-- The keep bit of three coordinates: all three lie in the interval. -/
def keep3 (x y z : BitVec 32) : BitVec 1 := IntOp.andi (IntOp.andi (inBox x) (inBox y)) (inBox z)

/-- Row `n` of the coordinate array is kept: its columns 0, 1 and 2 all lie in the interval. -/
def keep (c : Coords.Idx → BitVec 32) (n : Fin 1000000) : BitVec 1 :=
  keep3 (c (ix2 n 0)) (c (ix2 n 1)) (c (ix2 n 2))

/-- A bit as an extended real: 0 or 1. -/
def bitVal (b : BitVec 1) : EReal := ((b.toNat : ℝ) : EReal)

/-- The first result: the features, each row multiplied by its keep bit. -/
def maskedFeats (c : Coords.Idx → BitVec 32) (f : Feats.Idx → EReal) : Feats.Idx → EReal :=
  fun i => f i * bitVal (keep c (i 0))

/-- The second result: the keep bit of every row. -/
def keepMask (c : Coords.Idx → BitVec 32) : Rows.Idx → BitVec 1 := fun i => keep c (i 0)

/-- The keep bits as a column of 32-bit words, each bit zero-extended: what a program that stores the mask as
    integers leaves before it is compared with zero. -/
def keepColumn (c : Coords.Idx → BitVec 32) : Column.Idx → BitVec 32 := fun i => (keep c (i 0)).setWidth 32

/-! ## Bits -/

/-- A zero-extended bit read as a signed integer is the bit's number: the sign position is clear. -/
theorem toInt_setWidth_bit : ∀ b : BitVec 1, (b.setWidth 32).toInt = (b.toNat : Int) := by decide

/-- So converting the zero-extended bit as a signed integer gives 0 or 1, the bit's value. -/
theorem sitofp_setWidth_bit (b : BitVec 1) : (((b.setWidth 32).toInt : ℝ) : EReal) = bitVal b := by
  unfold bitVal
  rw [toInt_setWidth_bit b]
  simp

/-- A zero-extended bit differs from zero exactly when the bit is set. -/
theorem ne_zero_setWidth_bit : ∀ b : BitVec 1, IntOp.cmpi .ne (b.setWidth 32) 0#32 = b := by decide

/-- Six conditions conjoined one after another are the three intervals conjoined. -/
theorem and_chain (a1 a2 b1 b2 c1 c2 : BitVec 1) :
    IntOp.andi (IntOp.andi (IntOp.andi (IntOp.andi (IntOp.andi a1 a2) b1) b2) c1) c2
      = IntOp.andi (IntOp.andi (IntOp.andi a1 a2) (IntOp.andi b1 b2)) (IntOp.andi c1 c2) := by
  simp only [IntOp.andi, BitVec.and_assoc]

/-- Three bits conjoined onto the constant `true`, last first, are the three conjoined. -/
theorem and_onto_true : ∀ a b c : BitVec 1,
    IntOp.andi a (IntOp.andi b (IntOp.andi c 1#1)) = IntOp.andi (IntOp.andi a b) c := by decide

/-- A fold of a commutative, associative operation over the three coordinates of an axis of extent 3. -/
theorem fold_univ_fin3 {α : Type} (f : α → α → α) [Std.Commutative f] [Std.Associative f] (b : α) (g : Fin 3 → α) :
    (Finset.univ : Finset (Fin 3)).fold f b g = f (g 0) (f (g 1) (f (g 2) b)) := by
  simp only [Fin.univ_succ, Finset.fold_cons, Finset.fold_map, Finset.univ_unique, Finset.fold_singleton]
  rfl

end Cert.Crop

end
-- ==== Proof.RefValue.lean ====
/-
  The reference computes the specification.

  Its mask is a conjunction, reduced over the three columns of the sliced coordinate array from the constant `true`,
  of the two comparisons of each column with the broadcast bounds 10 and 90. A reduction by a commutative, associative
  operation over one axis is the fold of the operation over that axis's coordinates, so at row `n` it is the
  conjunction of the interval tests of columns 0, 1, 2 of row `n`: the keep bit. Its features are the argument
  multiplied by the mask, broadcast along the rows and converted to a float as an unsigned number: 0 or 1.
-/
import proofs.«142849_j42279658062072_2_alg».proof.Proof.Gen.ReferenceIdeal.Read
import proofs.«142849_j42279658062072_2_alg».proof.Proof.Spec
import Idealize.ShloMosaic.PureOps.Reduce
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx Cert.Crop

/-- Dropping the column axis of the sliced coordinates leaves the rows. -/
theorem reduces_cols : S1000000x3.Reduces [1] S1000000 := by decide

/-- Row `n` with column `k` put back is the index (n, k). -/
theorem lift_row (n : Fin 1000000) (k : Fin 3) : reduces_cols.lift (ix1 n) k = ix2 n k := by
  funext c; apply Fin.ext
  fin_cases c <;> rfl

/-- The compared-and-conjoined stage at (n, k): column `k` of row `n` of the argument lies in the interval. -/
theorem inBox_at (x0 : Coords.Idx → BitVec 32) (n : Fin 1000000) (k : Fin 3) :
    val_main_v7 (F := Ideal) x0 (ix2 n k) = inBox (x0 (ix2 n (⟨k.val, by have := k.isLt; omega⟩ : Fin 4))) := by
  rw [val_main_v7_apply, val_main_v3_apply, val_main_v6_apply, val_main_v0_apply, val_main_v2_apply, val_main_v1_apply,
    val_main_c_apply, val_main_v5_apply, val_main_v4_apply, val_main_c_0_apply]
  have e : idx_main_v0 (ix2 n k) = ix2 n (⟨k.val, by have := k.isLt; omega⟩ : Fin 4) :=
    funext fun a => Fin.ext (by match a with | ⟨0, _⟩ => rfl | ⟨1, _⟩ => rfl)
  rw [e]
  rfl

/-- The same, as the reduction meets it: the stage along row `n`, at column `k`. -/
theorem col_at (x0 : Coords.Idx → BitVec 32) (n : Fin 1000000) (k : Fin 3) :
    (val_main_v7 (F := Ideal) x0 ∘ reduces_cols.lift (ix1 n)) k
      = inBox (x0 (ix2 n (⟨k.val, by have := k.isLt; omega⟩ : Fin 4))) := by
  show val_main_v7 (F := Ideal) x0 (reduces_cols.lift (ix1 n) k) = _
  rw [lift_row]
  exact inBox_at x0 n k

/-- THE MASK: the reference's reduction over the columns is the keep bit of every row. -/
theorem mask_eq (x0 : Coords.Idx → BitVec 32) : val_main_v8 (F := Ideal) x0 = keepMask x0 := by
  funext j
  obtain ⟨n, rfl⟩ : ∃ n : Fin 1000000, j = ix1 n := ⟨j 0, eq_ix1 j⟩
  unfold val_main_v8
  refine (Host.reduce_eq_fold_single IntOp.andi (val_main_v7 (F := Ideal) x0) (val_main_c_1 (F := Ideal))
    reducesTo_S1000000x3_S1000000_d1 reduces_cols h_S_ (ix1 n)).trans ?_
  refine (fold_univ_fin3 IntOp.andi _ (val_main_v7 (F := Ideal) x0 ∘ reduces_cols.lift (ix1 n))).trans ?_
  have h0 : val_main_v7 (F := Ideal) x0 (reduces_cols.lift (ix1 n) (0 : Fin 3)) = inBox (x0 (ix2 n 0)) := col_at x0 n 0
  have h1 : val_main_v7 (F := Ideal) x0 (reduces_cols.lift (ix1 n) (1 : Fin 3)) = inBox (x0 (ix2 n 1)) := col_at x0 n 1
  have h2 : val_main_v7 (F := Ideal) x0 (reduces_cols.lift (ix1 n) (2 : Fin 3)) = inBox (x0 (ix2 n 2)) := col_at x0 n 2
  show IntOp.andi (val_main_v7 (F := Ideal) x0 (reduces_cols.lift (ix1 n) (0 : Fin 3)))
      (IntOp.andi (val_main_v7 (F := Ideal) x0 (reduces_cols.lift (ix1 n) (1 : Fin 3)))
        (IntOp.andi (val_main_v7 (F := Ideal) x0 (reduces_cols.lift (ix1 n) (2 : Fin 3))) 1#1)) = keep x0 n
  rw [h0, h1, h2, and_onto_true]
  rfl

/-- THE FEATURES: the reference's product is the features times the keep bit of the row, as 0 or 1. -/
theorem feats_eq (x0 : Coords.Idx → BitVec 32) (x1 : Feats.Idx → EReal) :
    val_main_v12 (F := Ideal) x0 x1 = maskedFeats x0 x1 := by
  funext i
  rw [val_main_v12_apply, val_main_v11_apply, val_main_v10_apply, val_main_v9_apply, mask_eq]
  rfl

end Cert.ReferenceIdeal.RefValue

end
-- ==== Proof.Payload.lean ====
/-
  The kernel body's arithmetic, at an index.

  The body loads a block of 4000 rows of coordinates and the same rows of features. It cuts the coordinate block into
  its columns 0, 1, 2, compares each with 10 and 90 and conjoins the six results one after another: at row `p` that
  is the keep bit of the row's three coordinates. It stores the features of the block multiplied by that bit —
  zero-extended to 32 bits, converted as a signed integer, broadcast along the row — and stores the zero-extended bit
  itself as a column. Each statement below reads one of those values at a row `p` (and a lane `q`) of the block.
-/
import proofs.«142849_j42279658062072_2_alg».proof.Proof.Gen.KernelIdeal.Skeleton
import proofs.«142849_j42279658062072_2_alg».proof.Proof.Spec
import Idealize.ShloMosaic.Lib.ValueIdx
import Idealize.ShloMosaic.Lib.Pipeline.Value

noncomputable section

namespace Cert.KernelIdeal.Payload

open Cert.KernelIdeal Cert.KernelIdeal.Gen
open Idealize.ShloMosaic Idealize.ShloMosaic.ValueIdx Cert.Crop

variable {F : FTy → Type} [FloatOps F]

/-- The one-column slice at column `o` of a block of coordinates, read at row `p`, is the block's entry (p, o). -/
theorem column_apply (v0 : S4000x4.Idx → BitVec 32) (o : Nat) (ho : o < 4) (h : S4000x4.Slices ![0, o] S4000x1)
    (p : Fin 4000) : extractStridedSlice S4000x1 ![0, o] v0 h (ix2 p 0) = v0 (ix2 p (⟨o, ho⟩ : Fin 4)) :=
  extractStridedSlice_apply _ v0 h (ix2 p 0) (ix2 p (⟨o, ho⟩ : Fin 4)) (fun a => match a with
    | ⟨0, _⟩ => by show p.val = 0 + p.val; omega
    | ⟨1, _⟩ => by show o = o + 0; omega)

/-- THE KEEP BIT of row `p` of the block: the six comparisons conjoined are the three interval tests of the row's
    columns 0, 1, 2. -/
theorem keep_block (v0 : Vec F S4000x4 .i32) (p : Fin 4000) :
    k0_pay1 v0 (ix2 p 0) = keep3 (v0 (ix2 p 0)) (v0 (ix2 p 1)) (v0 (ix2 p 2)) := by
  have e0 := column_apply v0 0 (by decide) slices_S4000x4_o0_0_S4000x1 p
  have e1 := column_apply v0 1 (by decide) slices_S4000x4_o0_1_S4000x1 p
  have e2 := column_apply v0 2 (by decide) slices_S4000x4_o0_2_S4000x1 p
  show IntOp.andi (IntOp.andi (IntOp.andi (IntOp.andi (IntOp.andi
      (IntOp.cmpi .sge (extractStridedSlice S4000x1 ![0, 0] v0 slices_S4000x4_o0_0_S4000x1 (ix2 p 0)) 10#32)
      (IntOp.cmpi .slt (extractStridedSlice S4000x1 ![0, 0] v0 slices_S4000x4_o0_0_S4000x1 (ix2 p 0)) 90#32))
      (IntOp.cmpi .sge (extractStridedSlice S4000x1 ![0, 1] v0 slices_S4000x4_o0_1_S4000x1 (ix2 p 0)) 10#32))
      (IntOp.cmpi .slt (extractStridedSlice S4000x1 ![0, 1] v0 slices_S4000x4_o0_1_S4000x1 (ix2 p 0)) 90#32))
      (IntOp.cmpi .sge (extractStridedSlice S4000x1 ![0, 2] v0 slices_S4000x4_o0_2_S4000x1 (ix2 p 0)) 10#32))
      (IntOp.cmpi .slt (extractStridedSlice S4000x1 ![0, 2] v0 slices_S4000x4_o0_2_S4000x1 (ix2 p 0)) 90#32) = _
  rw [e0, e1, e2, and_chain]
  rfl

/-- THE MASK COLUMN the body stores: at row `p`, the keep bit zero-extended to 32 bits. -/
theorem mask_block (v0 : Vec F S4000x4 .i32) (p : Fin 4000) :
    k0_pay3 v0 (ix2 p 0) = (keep3 (v0 (ix2 p 0)) (v0 (ix2 p 1)) (v0 (ix2 p 2))).setWidth 32 := by
  show (k0_pay1 v0 (ix2 p 0)).setWidth 32 = _
  rw [keep_block]

/-- A column of the block broadcast along the rows, read at (p, q), is the column at row `p`. -/
theorem rowBroadcast_apply {α : Type} (x : S4000x1.Idx → α) (h : S4000x1.Broadcasts S4000x64) (p : Fin 4000) (q : Fin 64) :
    broadcastTo S4000x64 x h (ix2 p q) = x (ix2 p 0) :=
  broadcastTo_apply x h (ix2 p q) (ix2 p 0) (fun a => match a with
    | ⟨0, _⟩ => by show p.val = if (4000 : Nat) = 1 then 0 else p.val; rw [if_neg (by decide)]
    | ⟨1, _⟩ => by show 0 = if (1 : Nat) = 1 then 0 else q.val; rw [if_pos rfl])

/-- THE FEATURES the body stores, on the extended reals: at (p, q), the feature times the row's keep bit as 0 or 1. -/
theorem feats_block (v0 : Vec Ideal S4000x4 .i32) (v21 : Vec Ideal S4000x64 .f32) (p : Fin 4000) (q : Fin 64) :
    k0_pay2 v0 v21 (ix2 p q)
      = v21 (ix2 p q) * bitVal (keep3 (v0 (ix2 p 0)) (v0 (ix2 p 1)) (v0 (ix2 p 2))) := by
  show v21 (ix2 p q) * broadcastTo S4000x64 (sitofp (F := Ideal) .f32 (extui 32 (k0_pay1 v0) natLt_1_32))
      broadcasts_S4000x1_S4000x64 (ix2 p q) = _
  rw [rowBroadcast_apply]
  show v21 (ix2 p q) * ((((k0_pay1 v0 (ix2 p 0)).setWidth 32).toInt : ℝ) : EReal) = _
  rw [sitofp_setWidth_bit, keep_block]

end Cert.KernelIdeal.Payload

end
-- ==== Proof.Blocks.lean ====
/-
  From blocks to arrays.

  The grid has 250 points; point `t` works on rows 4000·t … 4000·t + 3999 of every array: all four windows have the
  block index (t, 0). So an entry (p, k) of the coordinate block at `t` is the entry (4000·t + p, k) of the coordinate
  array, the feature block sits under the same rows, and what the point writes back — the features times the row's
  keep bit, and the column of zero-extended keep bits — is the block at `t` of ONE function of the whole argument
  arrays. The 250 blocks of 4000 rows cover the million rows (row `r` is in the block of point `r / 4000`), so each
  output array ends holding that function.
-/
import proofs.«142849_j42279658062072_2_alg».proof.Proof.Gen.KernelIdeal.Frame
import proofs.«142849_j42279658062072_2_alg».proof.Proof.Payload
import Idealize.ShloMosaic.Lib.Pipeline.Value

noncomputable section

namespace Cert.KernelIdeal.Blocks

open Cert.KernelIdeal Cert.KernelIdeal.Gen Cert.KernelIdeal.Payload
open Idealize.ShloMosaic Idealize.ShloMosaic.TcCoe Idealize.SL.Sem Idealize.ShloMosaic.ValueIdx Cert.Crop
open Idealize.ShloMosaic.Pipeline (Dat)

/-! ## The body's stores at an index of the block, given where the block sits in the arrays -/

/-- If row `j 0` of the coordinate block is row `i 0` of the coordinate array and the feature under `j` is the
    feature at `i`, the product the body stores at `j` is the masked feature at `i`. -/
theorem feats_point (x0 : Vec Ideal S4000x4 .i32) (x1 : Vec Ideal S4000x64 .f32) (C : Coords.Idx → BitVec 32)
    (Ff : Feats.Idx → EReal) (j : S4000x64.Idx) (i : Feats.Idx)
    (h0 : ∀ k : Fin 4, x0 (ix2 (j 0) k) = C (ix2 (i 0) k)) (h1 : x1 j = Ff i) :
    k0_pay2 x0 x1 j = maskedFeats C Ff i := by
  obtain ⟨p, q, rfl⟩ : ∃ (p : Fin 4000) (q : Fin 64), j = ix2 p q := ⟨j 0, j 1, eq_ix2 j⟩
  rw [feats_block, h1]
  show _ = Ff i * bitVal (keep3 (C (ix2 (i 0) 0)) (C (ix2 (i 0) 1)) (C (ix2 (i 0) 2)))
  rw [← h0 0, ← h0 1, ← h0 2]

/-- Under the same hypothesis on the rows, the word the body stores in the mask column at `j` is the keep bit of
    row `i 0`, zero-extended. -/
theorem mask_point {F : FTy → Type} [FloatOps F] (x0 : Vec F S4000x4 .i32) (C : Coords.Idx → BitVec 32)
    (j : S4000x1.Idx) (i : Column.Idx) (h0 : ∀ k : Fin 4, x0 (ix2 (j 0) k) = C (ix2 (i 0) k)) :
    k0_pay3 x0 j = keepColumn C i := by
  obtain ⟨p, q, rfl⟩ : ∃ (p : Fin 4000) (q : Fin 1), j = ix2 p q := ⟨j 0, j 1, eq_ix2 j⟩
  obtain rfl : q = 0 := Subsingleton.elim _ _
  rw [mask_block]
  show _ = (keep3 (C (ix2 (i 0) 0)) (C (ix2 (i 0) 1)) (C (ix2 (i 0) 2))).setWidth 32
  rw [← h0 0, ← h0 1, ← h0 2]

/-! ## The windows' blocks on the grid -/

variable (m : (ℓ : Loc nD τ sig) → Buf (Elt Ideal) ℓ) (ρ : Dev nD → PrngReg)

theorem zero_offsets : (![0, 0] : Fin 2 → Nat) = fun _ => 0 := funext fun a => by fin_cases a <;> rfl

/-- At every point the four windows are on the same block of rows, and on block 0 of the second axis. -/
theorem same_rows : ∀ t : Fin cfg0.N,
    win0_0.index t (0 : Fin 2) = win0_2.index t (0 : Fin 2) ∧ win0_0.index t (1 : Fin 2) = 0
    ∧ win0_1.index t (0 : Fin 2) = win0_2.index t (0 : Fin 2) ∧ win0_1.index t (1 : Fin 2) = 0
    ∧ win0_2.index t (1 : Fin 2) = 0
    ∧ win0_0.index t (0 : Fin 2) = win0_3.index t (0 : Fin 2) ∧ win0_3.index t (1 : Fin 2) = 0 :=
  (by decide +kernel : ∀ t : Fin grid0.N, _)

/-- Every block of 4000 rows is some point's block of the feature output, -/
theorem feats_onto : ∀ q : Fin 250, ∃ t : Fin cfg0.N, win0_2.index t = ![q.val, 0] :=
  (by decide +kernel : ∀ q : Fin 250, ∃ t : Fin grid0.N, win0_2.index t = ![q.val, 0])

/-- and some point's block of the mask output. -/
theorem mask_onto : ∀ q : Fin 250, ∃ t : Fin cfg0.N, win0_3.index t = ![q.val, 0] :=
  (by decide +kernel : ∀ q : Fin 250, ∃ t : Fin grid0.N, win0_3.index t = ![q.val, 0])

/-! ## The feature output -/

/-- WHAT POINT `t` WRITES BACK to the feature output is block `t` of the masked features of the argument arrays. -/
theorem flushed_feats (c : Dev nD) (t : Fin cfg0.N) :
    (dats m 0 c).flushed 2 t
      = ((cfg0.win 2).blk t).view.read (Elt Ideal) (maskedFeats (V m c main_arg0) (V m c main_arg1)) := by
  show (cfg0.win 2).cut (grid0.coords t) ((dats m 0 c).after 2 t) = _
  rw [after0_2]
  unfold out0_2
  rw [View.canon_unit_zero zero_offsets]
  simp only [View.ld_unit_zero (S := S4000x4) zero_offsets, View.ld_unit_zero (S := S4000x64) zero_offsets]
  obtain ⟨e0, e1, e2, e3, e4, e5, e6⟩ := same_rows t
  funext j
  show k0_pay2 (iblk m c 0 t) (iblk m c 1 t) j
    = maskedFeats (V m c main_arg0) (V m c main_arg1) (((cfg0.win 2).blk t).view.emb j)
  refine feats_point (iblk m c 0 t) (iblk m c 1 t) _ _ j _ (fun k => ?_) ?_
  · show V m c main_arg0 (((cfg0.win 0).blk t).view.emb (ix2 (j 0) k))
      = V m c main_arg0 (ix2 ((((cfg0.win 2).blk t).view.emb j) 0) k)
    refine congrArg _ (funext fun a => Fin.ext ?_)
    match a with
    | ⟨0, _⟩ =>
      show win0_0.index t (0 : Fin 2) * 4000 + 1 * (j 0).val = win0_2.index t (0 : Fin 2) * 4000 + 1 * (j 0).val
      omega
    | ⟨1, _⟩ =>
      show win0_0.index t (1 : Fin 2) * 4 + 1 * k.val = k.val
      omega
  · show V m c main_arg1 (((cfg0.win 1).blk t).view.emb j) = V m c main_arg1 (((cfg0.win 2).blk t).view.emb j)
    refine congrArg _ (funext fun a => Fin.ext ?_)
    match a with
    | ⟨0, _⟩ =>
      show win0_1.index t (0 : Fin 2) * 4000 + 1 * (j 0).val = win0_2.index t (0 : Fin 2) * 4000 + 1 * (j 0).val
      omega
    | ⟨1, _⟩ =>
      show win0_1.index t (1 : Fin 2) * 64 + 1 * (j 1).val = win0_2.index t (1 : Fin 2) * 64 + 1 * (j 1).val
      omega

/-- An index of the feature array is in point `t`'s block iff each coordinate is in the block's range on its axis. -/
theorem mem_feats_block (t : Fin cfg0.N) (i : S1000000x64.Idx) :
    i ∈ ((cfg0.win 2).blk t).view.set ↔ ∀ a : Fin 2, win0_2.index t a * S4000x64.size a ≤ (i a).val
      ∧ (i a).val < win0_2.index t a * S4000x64.size a + S4000x64.size a := by
  show i ∈ ((View.whole main_v0_0).slice (win0_2.rect t)).set ↔ _
  rw [View.set_slice_whole, Rect.mem_set_unit]
  exact Iff.rfl

/-- Every index of the feature array is in the block of the point its row falls under. -/
theorem cover_feats (i : S1000000x64.Idx) :
    ∃ t : Fin cfg0.N, (cfg0.win 2).flush t = true ∧ i ∈ ((cfg0.win 2).blk t).view.set := by
  have hi0 : (i 0).val < 1000000 := (i 0).isLt
  have hi1 : (i 1).val < 64 := (i 1).isLt
  obtain ⟨t, ht⟩ := feats_onto ⟨(i 0).val / 4000, by omega⟩
  have q0 : win0_2.index t (0 : Fin 2) = (i 0).val / 4000 := congrFun ht 0
  have q1 : win0_2.index t (1 : Fin 2) = 0 := congrFun ht 1
  refine ⟨t, flush0_2 t, ?_⟩
  rw [mem_feats_block]
  intro a
  match a with
  | ⟨0, _⟩ =>
    show win0_2.index t (0 : Fin 2) * 4000 ≤ (i 0).val ∧ (i 0).val < win0_2.index t (0 : Fin 2) * 4000 + 4000
    omega
  | ⟨1, _⟩ =>
    show win0_2.index t (1 : Fin 2) * 64 ≤ (i 1).val ∧ (i 1).val < win0_2.index t (1 : Fin 2) * 64 + 64
    omega

/-- THE FEATURE ARRAY after the region: the masked features of the argument arrays. -/
theorem final_feats (c : Dev nD) :
    (dats m 0 c).arrAt 2 cfg0.N = maskedFeats (V m c main_arg0) (V m c main_arg1) :=
  (dats m 0 c).arrAt_eq_of_cover 2 _ (fun t _ => flushed_feats m c t) cover_feats

/-! ## The mask output -/

/-- WHAT POINT `t` WRITES BACK to the mask output is block `t` of the column of zero-extended keep bits. -/
theorem flushed_mask (c : Dev nD) (t : Fin cfg0.N) :
    (dats m 0 c).flushed 3 t = ((cfg0.win 3).blk t).view.read (Elt Ideal) (keepColumn (V m c main_arg0)) := by
  show (cfg0.win 3).cut (grid0.coords t) ((dats m 0 c).after 3 t) = _
  rw [after0_3]
  unfold out0_3
  rw [View.canon_unit_zero zero_offsets]
  simp only [View.ld_unit_zero (S := S4000x4) zero_offsets]
  obtain ⟨e0, e1, e2, e3, e4, e5, e6⟩ := same_rows t
  funext j
  show k0_pay3 (iblk m c 0 t) j = keepColumn (V m c main_arg0) (((cfg0.win 3).blk t).view.emb j)
  refine mask_point (iblk m c 0 t) _ j _ (fun k => ?_)
  show V m c main_arg0 (((cfg0.win 0).blk t).view.emb (ix2 (j 0) k))
    = V m c main_arg0 (ix2 ((((cfg0.win 3).blk t).view.emb j) 0) k)
  refine congrArg _ (funext fun a => Fin.ext ?_)
  match a with
  | ⟨0, _⟩ =>
    show win0_0.index t (0 : Fin 2) * 4000 + 1 * (j 0).val = win0_3.index t (0 : Fin 2) * 4000 + 1 * (j 0).val
    omega
  | ⟨1, _⟩ =>
    show win0_0.index t (1 : Fin 2) * 4 + 1 * k.val = k.val
    omega

/-- An index of the mask column is in point `t`'s block iff each coordinate is in the block's range on its axis. -/
theorem mem_mask_block (t : Fin cfg0.N) (i : S1000000x1.Idx) :
    i ∈ ((cfg0.win 3).blk t).view.set ↔ ∀ a : Fin 2, win0_3.index t a * S4000x1.size a ≤ (i a).val
      ∧ (i a).val < win0_3.index t a * S4000x1.size a + S4000x1.size a := by
  show i ∈ ((View.whole main_v0_1).slice (win0_3.rect t)).set ↔ _
  rw [View.set_slice_whole, Rect.mem_set_unit]
  exact Iff.rfl

/-- Every index of the mask column is in the block of the point its row falls under. -/
theorem cover_mask (i : S1000000x1.Idx) :
    ∃ t : Fin cfg0.N, (cfg0.win 3).flush t = true ∧ i ∈ ((cfg0.win 3).blk t).view.set := by
  have hi0 : (i 0).val < 1000000 := (i 0).isLt
  have hi1 : (i 1).val < 1 := (i 1).isLt
  obtain ⟨t, ht⟩ := mask_onto ⟨(i 0).val / 4000, by omega⟩
  have q0 : win0_3.index t (0 : Fin 2) = (i 0).val / 4000 := congrFun ht 0
  have q1 : win0_3.index t (1 : Fin 2) = 0 := congrFun ht 1
  refine ⟨t, flush0_3 t, ?_⟩
  rw [mem_mask_block]
  intro a
  match a with
  | ⟨0, _⟩ =>
    show win0_3.index t (0 : Fin 2) * 4000 ≤ (i 0).val ∧ (i 0).val < win0_3.index t (0 : Fin 2) * 4000 + 4000
    omega
  | ⟨1, _⟩ =>
    show win0_3.index t (1 : Fin 2) * 1 ≤ (i 1).val ∧ (i 1).val < win0_3.index t (1 : Fin 2) * 1 + 1
    omega

/-- THE MASK COLUMN after the region: the zero-extended keep bit of every row of the coordinate argument. -/
theorem final_mask (c : Dev nD) : (dats m 0 c).arrAt 3 cfg0.N = keepColumn (V m c main_arg0) :=
  (dats m 0 c).arrAt_eq_of_cover 3 _ (fun t _ => flushed_mask m c t) cover_mask

end Cert.KernelIdeal.Blocks

end
-- ==== Proof.KernelRun.lean ====
/-
  The kernel program's two results.

  The region leaves the feature output holding the masked features and the mask output holding, as a column of 32-bit
  words, the zero-extended keep bits. The first is a result as it stands. The lines after the region reshape the
  column to a vector (row `n` of the column is entry `n` of the vector: the row-major positions n·1 + 0 and n agree),
  compare it with a broadcast zero for inequality, and convert the comparison's bits to bits: entry `n` of the second
  result is "the zero-extended keep bit of row `n` is not zero", which is the keep bit.
-/
import proofs.«142849_j42279658062072_2_alg».proof.Proof.Blocks
import Idealize.ShloMosaic.Lib.StableHlo.Run

noncomputable section

namespace Cert.KernelIdeal.KernelRun

open Cert.KernelIdeal Cert.KernelIdeal.Gen
open Idealize.ShloMosaic Idealize.ShloMosaic.TcCoe Idealize.SL.Sem Idealize.ShloMosaic.ValueIdx Cert.Crop
open Idealize.ShloMosaic.StableHlo

variable (m : (ℓ : Loc nD τ sig) → Buf (Elt Ideal) ℓ) (ρ : Dev nD → PrngReg)

/-- The second result's buffer is no array the region stages: the lines after the region write it. -/
theorem mask_unstaged : main_v4 ∈ Pipeline.restRefs sig (cfgs 0).spec :=
  Pipeline.mem_restRefs_of main_v4 rfl (by decide)

/-- THE SECOND RESULT: after the lines that follow the region, the keep bit of every row of the coordinate argument. -/
theorem tail_mask (c : Dev nD) :
    Pipeline.afterTail₀ cfgs (dats m) 0 (V0 m) [hostOps1] c main_v4 = keepMask (V m c main_arg0) := by
  have e : Pipeline.withArrays (cfgs 0).spec c (V0 m c) (fun w => (dats m 0 c).arrAt w (cfgs 0).N)
      (Proc.devRef .tc main_v0_1) = keepColumn (V m c main_arg0) :=
    (Pipeline.withArrays_arr spec0 launch0.win.arr_inj c _ _ 3).trans (Blocks.final_mask m c)
  unfold Pipeline.afterTail₀
  show StableHlo.after hostOps1 _ (Proc.devRef .tc main_v4) = _
  after_results
  rw [e]
  funext j
  obtain ⟨n, rfl⟩ : ∃ n : Fin 1000000, j = ix1 n := ⟨j 0, eq_ix1 j⟩
  show IntOp.cmpi .ne (shapeCast S1000000 (keepColumn (V m c main_arg0)) shapeCasts_S1000000x1_S1000000 (ix1 n))
      (broadcastInDim S1000000 ![] bcast_S_S1000000 (constantI S_ 32 0#32) (ix1 n)) = keep (V m c main_arg0) n
  rw [shapeCast_apply (keepColumn (V m c main_arg0)) shapeCasts_S1000000x1_S1000000 (ix1 n) (ix2 n 0) (by
      rw [Shape.rowMajor_val_two, Shape.rowMajor_val_one]; show n.val * 1 + 0 = n.val; omega),
    broadcastInDim_apply _ bcast_S_S1000000 (constantI S_ 32 0#32) (ix1 n) ix0 (fun a => a.elim0)]
  exact ne_zero_setWidth_bit _

/-- THE RUN: every weakly fair execution of the program terminates with the first result at the masked features and
    the second at the keep mask of the argument arrays, and the arguments as they were. -/
theorem run : θ_run defs (onTc (τ := τ) (main (F := Ideal))) ⟨m, fun _ => 0, ρ⟩ fun r => ∀ c : Dev nD,
      r.2.mem ((c.tc : Thread nD τ).loc main_v0_0)
        = maskedFeats (m ((c.tc : Thread nD τ).loc main_arg0)) (m ((c.tc : Thread nD τ).loc main_arg1))
      ∧ r.2.mem ((c.tc : Thread nD τ).loc main_v4) = keepMask (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).1 2).trans (Blocks.final_feats m c),
      ((h c).2 main_v4 mask_unstaged).trans (tail_mask m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KernelRun

end
-- ==== Proof.lean ====
/- The crop of a sparse point cloud, against its reference.

   Both programs take the points' coordinates (a million rows of four signed 32-bit integers) and features (a million
   rows of 64 floats) and return the features with the rows of the cropped-away points zeroed, and the mask of the kept
   points. A point is kept when its three spatial coordinates lie in [10, 90). On the extended reals both first
   results are, entry by entry, the feature times the keep bit of its row read as 0 or 1 — the same product on both
   sides, so no finiteness of the features is used — and both second results are the keep bit of each row.

   The specification is Proof/Spec.lean. The reference computes it by comparing a slice of three columns with broadcast
   bounds and reducing the conjunction over the columns (Proof/RefValue.lean, over the reference's run read one
   operation at a time). The kernel computes it block by block: 250 grid points of 4000 rows each, the six comparisons
   conjoined in the body (Proof/Payload.lean), the blocks tiling the arrays (Proof/Blocks.lean), and the mask stored as
   a column of words that the lines after the region compare with zero (Proof/KernelRun.lean). The two frame claims of
   the kernel are its frame run; the reference's is its run with the results dropped; the idealization rewrote
   nothing, so `preserves` has nothing to state. -/
import proofs.«142849_j42279658062072_2_alg».proof.Defs
import proofs.«142849_j42279658062072_2_alg».proof.Proof.Gen.Kernel
import proofs.«142849_j42279658062072_2_alg».proof.Proof.Gen.Kernel.Skeleton
import proofs.«142849_j42279658062072_2_alg».proof.Proof.Gen.Kernel.Launch
import proofs.«142849_j42279658062072_2_alg».proof.Proof.Gen.Kernel.Points
import proofs.«142849_j42279658062072_2_alg».proof.Proof.Gen.Kernel.Frame
import proofs.«142849_j42279658062072_2_alg».proof.Proof.Gen.KernelIdeal
import proofs.«142849_j42279658062072_2_alg».proof.Proof.Gen.KernelIdeal.Skeleton
import proofs.«142849_j42279658062072_2_alg».proof.Proof.Gen.KernelIdeal.Launch
import proofs.«142849_j42279658062072_2_alg».proof.Proof.Gen.KernelIdeal.Points
import proofs.«142849_j42279658062072_2_alg».proof.Proof.Gen.KernelIdeal.Frame
import proofs.«142849_j42279658062072_2_alg».proof.Proof.Gen.ReferenceIdeal
import proofs.«142849_j42279658062072_2_alg».proof.Proof.Gen.Pre_finite_inputs
import proofs.«142849_j42279658062072_2_alg».proof.Proof.Gen.ReferenceIdeal.Run
import proofs.«142849_j42279658062072_2_alg».proof.Proof.Gen.ReferenceIdeal.Read
import proofs.«142849_j42279658062072_2_alg».proof.Proof.RefValue
import proofs.«142849_j42279658062072_2_alg».proof.Proof.KernelRun
import Idealize.ShloMosaic.Adequacy
import Idealize.ShloMosaic.Init

noncomputable section

namespace Cert.Proof

open Idealize.ShloMosaic Idealize.SL.Sem Cert.Crop

/-- The kernel as printed runs and keeps its arguments. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From arguments that agree, both programs end with the masked features and the keep mask of those arguments. -/
theorem algebraic : Cert.algebraic_KernelIdeal_ReferenceIdeal := by
  intro m ρ m' ρ' _ hagree
  refine ⟨fun c => maskedFeats (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => keepMask (m ((c.tc : Thread Cert.KernelIdeal.nD Cert.KernelIdeal.τ).loc Cert.KernelIdeal.main_arg0)),
    Cert.KernelIdeal.KernelRun.run m ρ, ?_⟩
  refine (θ_run Cert.ReferenceIdeal.defs _ _).mono (fun _ h c => ⟨?_, ?_, (h c).2.2.1, (h c).2.2.2⟩)
    (Cert.ReferenceIdeal.Value.run (F := Ideal) m' ρ')
  · refine (h c).1.trans ((Cert.ReferenceIdeal.Read.val_main_v12_eq _ _).trans
      ((Cert.ReferenceIdeal.RefValue.feats_eq _ _).trans ?_))
    rw [(hagree c).1, (hagree c).2]
  · refine (h c).2.1.trans ((Cert.ReferenceIdeal.Read.val_main_v8_eq _).trans
      ((Cert.ReferenceIdeal.RefValue.mask_eq _).trans ?_))
    rw [(hagree c).1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
